-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4x4096x256 .f32) (main_arg1 : FVec F S256x256 .f32) (main_arg2 : FVec F S256 .f32) (main_arg3 : FVec F S256x256 .f32) (main_arg4 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S1x256 : Shape := ⟨2, ![1, 256]⟩
abbrev S4x4096x4096 : Shape := ⟨3, ![4, 4096, 4096]⟩
abbrev S1x4096x256 : Shape := ⟨3, ![1, 4096, 256]⟩
abbrev S1x256x4096 : Shape := ⟨3, ![1, 256, 4096]⟩
abbrev S4096x256 : Shape := ⟨2, ![4096, 256]⟩
abbrev S1x256x256 : Shape := ⟨3, ![1, 256, 256]⟩
abbrev S256x4096 : Shape := ⟨2, ![256, 4096]⟩
abbrev S256x1 : Shape := ⟨2, ![256, 1]⟩

abbrev nBuf : Space → Nat
  | .hbm => 12
  | .vmem => 9
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S256x256, .f32⟩
  | .hbm, ⟨8, _⟩ => ⟨S256x256, .bf16⟩
  | .hbm, ⟨9, _⟩ => ⟨S256x256, .f32⟩
  | .hbm, ⟨10, _⟩ => ⟨S256x256, .bf16⟩
  | .hbm, ⟨11, _⟩ => ⟨S4x4096x4096, .f32⟩
  | .local _ .vmem, ⟨0, _⟩ => ⟨S1x4096x256, .f32⟩
  | .local _ .vmem, ⟨1, _⟩ => ⟨S1x4096x256, .f32⟩
  | .local _ .vmem, ⟨2, _⟩ => ⟨S256x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S1x256x4096, .f32⟩
  | .local _ .vmem, ⟨7, _⟩ => ⟨S1x256x4096, .f32⟩
  | .local _ .vmem, ⟨8, _⟩ => ⟨S4096x256, .bf16⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S256_S1x256 : S256.ShapeCasts S1x256
  transposes_S256x256_S256x256_1_0 : S256x256.Transposes [1, 0] S256x256
  bitsLt_bf16_f32 : FTy.bits .bf16 < FTy.bits .f32
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S256 : S1x256.ShapeCasts S256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  h_S1x256x256 : 0 < S1x256x256.numel
  shapeCasts_S1x256x256_S256x256 : S1x256x256.ShapeCasts S256x256
  broadcasts_S1x256_S256x256 : S1x256.Broadcasts S256x256
  reduces_S256x4096_S256 : S256x4096.Reduces [1] S256
  shapeCasts_S256_S256x1 : S256.ShapeCasts S256x1
  broadcasts_S256x1_S256x4096 : S256x1.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  dot_S4096x256_S256x256_S4096x256_1_0_0_1_n_n_wf : DotDims.WF S4096x256 S256x256 S4096x256 [1] [0] [0] [1] [] []
  dot_S256x256_S256x256_S256x256_1_0_0_1_n_n_wf : DotDims.WF S256x256 S256x256 S256x256 [1] [0] [0] [1] [] []
  dot_S256x256_S4096x256_S256x4096_1_1_0_0_n_n_wf : DotDims.WF S256x256 S4096x256 S256x4096 [1] [1] [0] [0] [] []
  hrank0 : 0 < grid0.rank
  k0_mult1_dvd : ∀ i : grid0.Coords, 256 ∣ (k0_mult1 i).toNat
  k0_off1_inb : ∀ i : grid0.Coords, ∀ a, (k0_off1 i) a + S1x256x256.size a ≤ S1x4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .f32 = 32 ∨ (Rect.block (s := S4x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S4x4096x4096.size a
  hwx0_5 : ∀ i : grid0.Coords, EltTy.bits .f32 = 32 ∨ (Rect.block (s := S4x4096x4096) S1x256x4096.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S1x1x256 : Shape := ⟨3, ![1, 1, 256]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S4x4096x256, .f32⟩
  | .hbm, ⟨6, _⟩ => ⟨S1x1x256, .f32⟩
  | .hbm, ⟨7, _⟩ => ⟨S4x4096x256, .f32⟩
  | .hbm, ⟨8, _⟩ => ⟨S4x4096x256, .f32⟩
  | .hbm, ⟨9, _⟩ => ⟨S4x4096x256, .f32⟩
  | .hbm, ⟨10, _⟩ => ⟨S1x1x256, .f32⟩
  | .hbm, ⟨11, _⟩ => ⟨S4x4096x256, .f32⟩
  | .hbm, ⟨12, _⟩ => ⟨S4x4096x256, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x4096, .f32⟩
  | .hbm, ⟨22, _⟩ => ⟨S4x4096x4096, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf

class Facts : Prop extends Facts₀ where

variable [Facts]
-- ==== Proof.Spec.lean ====
/-
  The function both programs compute, index by index, over the extended reals.

  For a batch `p`, a query row `n` and a key row `k`:
    q(p, n, g) = Σ_f x(p, n, f) · Wq(g, f) + bq(g)        (the query projection)
    κ(p, k, g) = Σ_f x(p, k, f) · Wk(g, f) + bk(g)        (the key projection)
    d(p, n, k) = Σ_g q(p, n, g) · κ(p, k, g)              (the score)
    s(p, n, k) = d(p, n, k)²
    adj(p, n, k) = s(p, n, k) / max(Σ_k' s(p, n, k'), ε)  (each row of squares normalised by its sum, floored at ε)
  with ε the single-precision word nearest 1e-12, the same word in both programs (never evaluated).
-/
import Idealize.ShloMosaic.PureOps.Ideal
import Idealize.ShloMosaic.Lib.ValueIdx

noncomputable section

namespace Cert.Spec

open Idealize.ShloMosaic Idealize.ShloMosaic.ValueIdx
open scoped BigOperators

/-- The shapes of the arguments and of the result. -/
abbrev SX : Shape := ⟨3, ![4, 4096, 256]⟩
abbrev SW : Shape := ⟨2, ![256, 256]⟩
abbrev SB : Shape := ⟨1, ![256]⟩
abbrev SA : Shape := ⟨3, ![4, 4096, 4096]⟩

/-- The floor of the normaliser: the single-precision word nearest `1e-12`, as an extended real. -/
def eps : EReal := Ideal.ofBits .f32 0x2B8CBCCC#32

/-- A linear layer at one output feature: row `n` of batch `p` of `x` against row `g` of the weight, plus the bias. -/
def lin (x : SX.Idx → EReal) (W : SW.Idx → EReal) (b : SB.Idx → EReal) (p : Fin 4) (n : Fin 4096) (g : Fin 256) : EReal :=
  (∑ f : Fin 256, x (ix3 p n f) * W (ix2 g f)) + b (ix1 g)

/-- The score of query row `n` against key row `k`: the two projections contracted over the features. -/
def score (x : SX.Idx → EReal) (Wq : SW.Idx → EReal) (bq : SB.Idx → EReal) (Wk : SW.Idx → EReal) (bk : SB.Idx → EReal)
    (p : Fin 4) (n k : Fin 4096) : EReal :=
  ∑ g : Fin 256, lin x Wq bq p n g * lin x Wk bk p k g

/-- The squared score. -/
def sq (x : SX.Idx → EReal) (Wq : SW.Idx → EReal) (bq : SB.Idx → EReal) (Wk : SW.Idx → EReal) (bk : SB.Idx → EReal)
    (p : Fin 4) (n k : Fin 4096) : EReal :=
  score x Wq bq Wk bk p n k * score x Wq bq Wk bk p n k

/-- The result: each row of squared scores divided by its sum, floored at `eps`. -/
def adj (x : SX.Idx → EReal) (Wq : SW.Idx → EReal) (bq : SB.Idx → EReal) (Wk : SW.Idx → EReal) (bk : SB.Idx → EReal) :
    SA.Idx → EReal := fun i =>
  Ideal.div (sq x Wq bq Wk bk (i 0) (i 1) (i 2)) (max (∑ k : Fin 4096, sq x Wq bq Wk bk (i 0) (i 1) k) eps)

end Cert.Spec

end
-- ==== Proof.RefIsSpec.lean ====
/-
  The reference computes `Spec.adj`.

  Read one operation at a time, its result at (p, n, k) is the quotient of the squared score by the floored row sum,
  the score a contraction over the 256 features of the two projections `x·Wᵀ + b`; the broadcasts only repeat the
  bias along rows and the floored row sum along columns. Nothing is rearranged: the index maps of the operations,
  composed, are the coordinates `Spec.adj` names, and the host's initial zero of the row sum is absorbed.
-/
import proofs.«129601_j9835475108512_2_alg».proof.Proof.Gen.ReferenceIdeal.Read
import proofs.«129601_j9835475108512_2_alg».proof.Proof.Spec

noncomputable section

open Idealize.ShloMosaic Idealize.ShloMosaic.ValueIdx
open scoped BigOperators

namespace Cert.ReferenceIdeal.RefValue

open Cert.ReferenceIdeal Cert.ReferenceIdeal.Read

/-- The reference's result, as a function of its five arguments, is `Spec.adj` of them. -/
theorem reference_eq (x : FVec Ideal S4x4096x256 .f32) (Wq : FVec Ideal S256x256 .f32) (bq : FVec Ideal S256 .f32)
    (Wk : FVec Ideal S256x256 .f32) (bk : FVec Ideal S256 .f32) :
    val_main_v15 (F := Ideal) x Wq bq Wk bk = Cert.Spec.adj x Wq bq Wk bk := by
  funext i
  -- the row of the normaliser: (p, n, ·)
  have rowIdx : ∀ k : Fin 4096, idx_main_v10 (idx_main_v11 (idx_main_v14 i)) k = @ix3 4 4096 4096 (i 0) (i 1) k := fun k =>
    funext fun a => Fin.ext (by match a with | ⟨0, _⟩ => rfl | ⟨1, _⟩ => rfl | ⟨2, _⟩ => rfl)
  -- the query projection's operands at (p, n, g)
  have qx : ∀ (j : S4x4096x4096.Idx) (g f : Fin 256), lidx_main_v0 (lidx_main_v8 j g) f = @ix3 4 4096 256 (j 0) (j 1) f := fun j g f =>
    funext fun a => Fin.ext (by match a with | ⟨0, _⟩ => rfl | ⟨1, _⟩ => rfl | ⟨2, _⟩ => rfl)
  have qw : ∀ (j : S4x4096x4096.Idx) (g f : Fin 256), ridx_main_v0 (lidx_main_v8 j g) f = ix2 g f := fun j g f =>
    funext fun a => Fin.ext (by match a with | ⟨0, _⟩ => rfl | ⟨1, _⟩ => rfl)
  have qb : ∀ (j : S4x4096x4096.Idx) (g : Fin 256), idx_main_v1 (idx_main_v2 (lidx_main_v8 j g)) = ix1 g := fun j g =>
    funext fun a => Fin.ext (by match a with | ⟨0, _⟩ => rfl)
  -- the key projection's operands at (p, k, g)
  have kx : ∀ (j : S4x4096x4096.Idx) (g f : Fin 256), lidx_main_v4 (ridx_main_v8 j g) f = @ix3 4 4096 256 (j 0) (j 2) f := fun j g f =>
    funext fun a => Fin.ext (by match a with | ⟨0, _⟩ => rfl | ⟨1, _⟩ => rfl | ⟨2, _⟩ => rfl)
  have kw : ∀ (j : S4x4096x4096.Idx) (g f : Fin 256), ridx_main_v4 (ridx_main_v8 j g) f = ix2 g f := fun j g f =>
    funext fun a => Fin.ext (by match a with | ⟨0, _⟩ => rfl | ⟨1, _⟩ => rfl)
  have kb : ∀ (j : S4x4096x4096.Idx) (g : Fin 256), idx_main_v5 (idx_main_v6 (ridx_main_v8 j g)) = ix1 g := fun j g =>
    funext fun a => Fin.ext (by match a with | ⟨0, _⟩ => rfl)
  simp only [val_main_v15_apply, val_main_v14_apply, val_main_v13_apply, val_main_v12_apply, val_main_cst_0_apply,
    val_main_v11_apply, val_main_v10_apply, val_main_cst_apply, rowIdx]
  simp only [val_main_v15_apply, val_main_v14_apply, val_main_v13_apply, val_main_v12_apply, val_main_cst_0_apply,
    val_main_v11_apply, val_main_v10_apply, val_main_cst_apply, val_main_v9_apply, val_main_v8_apply, val_main_v3_apply,
    val_main_v7_apply, val_main_v0_apply, val_main_v4_apply, val_main_v2_apply, val_main_v1_apply, val_main_v6_apply,
    val_main_v5_apply, rowIdx, qx, qw, qb, kx, kw, kb,
    Ideal.hostDivf_def, Ideal.mulf_def, Ideal.addf_def, Ideal.maximumf_def, Ideal.ofBits_def, Ideal.ofBits_zero_f32, zero_add]
  rfl

end Cert.ReferenceIdeal.RefValue

end
-- ==== Proof.Payload.lean ====
/-
  The body's arithmetic read entry by entry over the extended reals.

  `k0_pay1` is the key projection of a whole batch: entry (k, g) is  Σ_f x(0, k, f) · Wkᵀ(f, g) + bk(0, g).
  `k0_pay2` is a query tile's result: with  q(r, g) = Σ_f rows(0, r, f) · Wqᵀ(f, g) + bq(0, g)  and
  d(r, k) = Σ_g q(r, g) · keys(k, g),  entry (0, r, k) is  d(r, k)² / max(Σ_k' d(r, k')², ε).
  Roundings to the short float format are the identity here, each matrix product into zero rows is the plain sum
  over the contracted axis, and the row sum is the plain sum over the 4096 columns.
-/
import proofs.«129601_j9835475108512_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.KernelIdeal.Payload

open Cert.KernelIdeal Cert.KernelIdeal.Gen

/-! ### Column vectors: a length-`a` vector as an [a, 1] column, and a column spread over `b` columns -/

section Columns
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ### The three matrix products, each into zero rows

For each product's dimension numbers: which coordinate of the result index, or of the contraction index, each operand's
index takes on each of its axes. -/

theorem keyDims_lhs_keep (j : S4096x256.Idx) (q : dot_S4096x256_S256x256_S4096x256_1_0_0_1_n_n.contr.Idx) : (dot_S4096x256_S256x256_S4096x256_1_0_0_1_n_n.lhsIdx j q 0).val = (j 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem keyDims_lhs_contr (j : S4096x256.Idx) (q : dot_S4096x256_S256x256_S4096x256_1_0_0_1_n_n.contr.Idx) : (dot_S4096x256_S256x256_S4096x256_1_0_0_1_n_n.lhsIdx j q 1).val = (q ⟨0, by decide⟩).val :=
  dot_S4096x256_S256x256_S4096x256_1_0_0_1_n_n.lhsIdx_val_of_single rfl j q
theorem keyDims_rhs_keep (j : S4096x256.Idx) (q : dot_S4096x256_S256x256_S4096x256_1_0_0_1_n_n.contr.Idx) : (dot_S4096x256_S256x256_S4096x256_1_0_0_1_n_n.rhsIdx j q 1).val = (j 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl
theorem keyDims_rhs_contr (j : S4096x256.Idx) (q : dot_S4096x256_S256x256_S4096x256_1_0_0_1_n_n.contr.Idx) : (dot_S4096x256_S256x256_S4096x256_1_0_0_1_n_n.rhsIdx j q 0).val = (q ⟨0, by decide⟩).val :=
  dot_S4096x256_S256x256_S4096x256_1_0_0_1_n_n.rhsIdx_val_of_single rfl j q

theorem queryDims_lhs_keep (j : S256x256.Idx) (q : dot_S256x256_S256x256_S256x256_1_0_0_1_n_n.contr.Idx) : (dot_S256x256_S256x256_S256x256_1_0_0_1_n_n.lhsIdx j q 0).val = (j 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem queryDims_lhs_contr (j : S256x256.Idx) (q : dot_S256x256_S256x256_S256x256_1_0_0_1_n_n.contr.Idx) : (dot_S256x256_S256x256_S256x256_1_0_0_1_n_n.lhsIdx j q 1).val = (q ⟨0, by decide⟩).val :=
  dot_S256x256_S256x256_S256x256_1_0_0_1_n_n.lhsIdx_val_of_single rfl j q
theorem queryDims_rhs_keep (j : S256x256.Idx) (q : dot_S256x256_S256x256_S256x256_1_0_0_1_n_n.contr.Idx) : (dot_S256x256_S256x256_S256x256_1_0_0_1_n_n.rhsIdx j q 1).val = (j 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl
theorem queryDims_rhs_contr (j : S256x256.Idx) (q : dot_S256x256_S256x256_S256x256_1_0_0_1_n_n.contr.Idx) : (dot_S256x256_S256x256_S256x256_1_0_0_1_n_n.rhsIdx j q 0).val = (q ⟨0, by decide⟩).val :=
  dot_S256x256_S256x256_S256x256_1_0_0_1_n_n.rhsIdx_val_of_single rfl j q

theorem scoreDims_lhs_keep (j : S256x4096.Idx) (q : dot_S256x256_S4096x256_S256x4096_1_1_0_0_n_n.contr.Idx) : (dot_S256x256_S4096x256_S256x4096_1_1_0_0_n_n.lhsIdx j q 0).val = (j 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
theorem scoreDims_lhs_contr (j : S256x4096.Idx) (q : dot_S256x256_S4096x256_S256x4096_1_1_0_0_n_n.contr.Idx) : (dot_S256x256_S4096x256_S256x4096_1_1_0_0_n_n.lhsIdx j q 1).val = (q ⟨0, by decide⟩).val :=
  dot_S256x256_S4096x256_S256x4096_1_1_0_0_n_n.lhsIdx_val_of_single rfl j q
theorem scoreDims_rhs_keep (j : S256x4096.Idx) (q : dot_S256x256_S4096x256_S256x4096_1_1_0_0_n_n.contr.Idx) : (dot_S256x256_S4096x256_S256x4096_1_1_0_0_n_n.rhsIdx j q 0).val = (j 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl
theorem scoreDims_rhs_contr (j : S256x4096.Idx) (q : dot_S256x256_S4096x256_S256x4096_1_1_0_0_n_n.contr.Idx) : (dot_S256x256_S4096x256_S256x4096_1_1_0_0_n_n.rhsIdx j q 1).val = (q ⟨0, by decide⟩).val :=
  dot_S256x256_S4096x256_S256x4096_1_1_0_0_n_n.rhsIdx_val_of_single rfl j q

/-- Rows × features against features × features (a projection of a whole batch): the left operand's columns are contracted against the right operand's rows. -/
theorem keyProduct_apply (l : FVec Ideal S4096x256 .bf16) (r : FVec Ideal S256x256 .bf16) (n : Fin 4096) (k : Fin 256) :
    matmul dot_S4096x256_S256x256_S4096x256_1_0_0_1_n_n none l r (constant (F := Ideal) S4096x256 .f32 0x00000000#32) (ix2 n k)
      = ∑ f : Fin 256, l (ix2 n f) * r (ix2 f k) := by
  simp only [matmul]
  rw [Ideal.matmul_constant_zero_apply, ← Equiv.sum_comp (contrEquiv1 dot_S4096x256_S256x256_S4096x256_1_0_0_1_n_n 256 rfl rfl).symm]
  refine Finset.sum_congr rfl fun f _ => ?_
  have hf := contrEquiv1_symm_val dot_S4096x256_S256x256_S4096x256_1_0_0_1_n_n 256 rfl rfl f
  have el : dot_S4096x256_S256x256_S4096x256_1_0_0_1_n_n.lhsIdx (ix2 n k) ((contrEquiv1 dot_S4096x256_S256x256_S4096x256_1_0_0_1_n_n 256 rfl rfl).symm f) = ix2 n f := funext fun a => Fin.ext (by
    match a with
    | ⟨0, _⟩ => exact keyDims_lhs_keep _ _
    | ⟨1, _⟩ => exact (keyDims_lhs_contr _ _).trans hf)
  have er : dot_S4096x256_S256x256_S4096x256_1_0_0_1_n_n.rhsIdx (ix2 n k) ((contrEquiv1 dot_S4096x256_S256x256_S4096x256_1_0_0_1_n_n 256 rfl rfl).symm f) = ix2 f k := funext fun a => Fin.ext (by
    match a with
    | ⟨0, _⟩ => exact (keyDims_rhs_contr _ _).trans hf
    | ⟨1, _⟩ => exact keyDims_rhs_keep _ _)
  rw [el, er]

/-- The same dimension numbers on a tile of 256 rows. -/
theorem queryProduct_apply (l : FVec Ideal S256x256 .bf16) (r : FVec Ideal S256x256 .bf16) (n : Fin 256) (k : Fin 256) :
    matmul dot_S256x256_S256x256_S256x256_1_0_0_1_n_n none l r (constant (F := Ideal) S256x256 .f32 0x00000000#32) (ix2 n k)
      = ∑ f : Fin 256, l (ix2 n f) * r (ix2 f k) := by
  simp only [matmul]
  rw [Ideal.matmul_constant_zero_apply, ← Equiv.sum_comp (contrEquiv1 dot_S256x256_S256x256_S256x256_1_0_0_1_n_n 256 rfl rfl).symm]
  refine Finset.sum_congr rfl fun f _ => ?_
  have hf := contrEquiv1_symm_val dot_S256x256_S256x256_S256x256_1_0_0_1_n_n 256 rfl rfl f
  have el : dot_S256x256_S256x256_S256x256_1_0_0_1_n_n.lhsIdx (ix2 n k) ((contrEquiv1 dot_S256x256_S256x256_S256x256_1_0_0_1_n_n 256 rfl rfl).symm f) = ix2 n f := funext fun a => Fin.ext (by
    match a with
    | ⟨0, _⟩ => exact queryDims_lhs_keep _ _
    | ⟨1, _⟩ => exact (queryDims_lhs_contr _ _).trans hf)
  have er : dot_S256x256_S256x256_S256x256_1_0_0_1_n_n.rhsIdx (ix2 n k) ((contrEquiv1 dot_S256x256_S256x256_S256x256_1_0_0_1_n_n 256 rfl rfl).symm f) = ix2 f k := funext fun a => Fin.ext (by
    match a with
    | ⟨0, _⟩ => exact (queryDims_rhs_contr _ _).trans hf
    | ⟨1, _⟩ => exact queryDims_rhs_keep _ _)
  rw [el, er]

/-- Queries against keys: both operands are contracted over their feature axis (their columns). -/
theorem scoreProduct_apply (l : FVec Ideal S256x256 .bf16) (r : FVec Ideal S4096x256 .bf16) (n : Fin 256) (k : Fin 4096) :
    matmul dot_S256x256_S4096x256_S256x4096_1_1_0_0_n_n none l r (constant (F := Ideal) S256x4096 .f32 0x00000000#32) (ix2 n k)
      = ∑ f : Fin 256, l (ix2 n f) * r (ix2 k f) := by
  simp only [matmul]
  rw [Ideal.matmul_constant_zero_apply, ← Equiv.sum_comp (contrEquiv1 dot_S256x256_S4096x256_S256x4096_1_1_0_0_n_n 256 rfl rfl).symm]
  refine Finset.sum_congr rfl fun f _ => ?_
  have hf := contrEquiv1_symm_val dot_S256x256_S4096x256_S256x4096_1_1_0_0_n_n 256 rfl rfl f
  have el : dot_S256x256_S4096x256_S256x4096_1_1_0_0_n_n.lhsIdx (ix2 n k) ((contrEquiv1 dot_S256x256_S4096x256_S256x4096_1_1_0_0_n_n 256 rfl rfl).symm f) = ix2 n f := funext fun a => Fin.ext (by
    match a with
    | ⟨0, _⟩ => exact scoreDims_lhs_keep _ _
    | ⟨1, _⟩ => exact (scoreDims_lhs_contr _ _).trans hf)
  have er : dot_S256x256_S4096x256_S256x4096_1_1_0_0_n_n.rhsIdx (ix2 n k) ((contrEquiv1 dot_S256x256_S4096x256_S256x4096_1_1_0_0_n_n 256 rfl rfl).symm f) = ix2 k f := funext fun a => Fin.ext (by
    match a with
    | ⟨0, _⟩ => exact scoreDims_rhs_keep _ _
    | ⟨1, _⟩ => exact (scoreDims_rhs_contr _ _).trans hf)
  rw [el, er]

/-! ### The row sum of the squared scores -/

/-- Summing a [256, 4096] array along its columns leaves, at row `r`, the sum over the 4096 columns. -/
theorem rowSum_apply (src : FVec Ideal S256x4096 .f32) (acc : BitVec FTy.f32.bits) (h : S256x4096.Reduces [1] S256)
    (hφ : FKind.Formats .f32) (hacc : acc = FKind.add.neutral .f32 hφ) (r : Fin 256) :
    multiReduction (F := Ideal) .add [1] S256 src acc h hφ hacc (ix1 r) = ∑ k : Fin 4096, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-! ### The two stored values, entry by entry -/

/-- The key projection of a batch, at key row `k` and feature `g`. -/
theorem keys_apply (v30 : FVec Ideal S1x4096x256 .f32) (v33 : FVec Ideal S256x256 .bf16) (v36 : FVec Ideal S1x256 .f32)
    (k : Fin 4096) (g : Fin 256) :
    k0_pay1 (F := Ideal) v30 v33 v36 (ix2 k g)
      = (∑ f : Fin 256, v30 (ix3 (0 : Fin 1) k f) * v33 (ix2 f g)) + v36 (ix2 (0 : Fin 1) g) := by
  unfold k0_pay1
  simp only [shapeCast_self, truncf_apply, addf_apply, keyProduct_apply, broadcastTo_1b_ab_apply, shapeCast_a_1a_apply,
    shapeCast_1a_a_apply, shapeCast_1ab_ab_apply]

/-- The query projection of a tile's row `r` at feature `g`. -/
def tileQuery (v6 : FVec Ideal S1x256x256 .f32) (v9 : FVec Ideal S256x256 .bf16) (v12 : FVec Ideal S1x256 .f32)
    (r g : Fin 256) : EReal :=
  (∑ f : Fin 256, v6 (ix3 (0 : Fin 1) r f) * v9 (ix2 f g)) + v12 (ix2 (0 : Fin 1) g)

/-- The score of a tile's row `r` against key row `k` of whatever keys are handed in. -/
def tileScore (v6 : FVec Ideal S1x256x256 .f32) (v9 : FVec Ideal S256x256 .bf16) (v12 : FVec Ideal S1x256 .f32)
    (v18 : FVec Ideal S4096x256 .bf16) (r : Fin 256) (k : Fin 4096) : EReal :=
  ∑ g : Fin 256, tileQuery v6 v9 v12 r g * v18 (ix2 k g)

/-- A tile's result at row `r`, column `k`: the squared score over the floored sum of the row's squared scores. -/
theorem tile_apply (v6 : FVec Ideal S1x256x256 .f32) (v9 : FVec Ideal S256x256 .bf16) (v12 : FVec Ideal S1x256 .f32)
    (v18 : FVec Ideal S4096x256 .bf16) (u : Fin 1) (r : Fin 256) (k : Fin 4096) :
    k0_pay2 (F := Ideal) v6 v9 v12 v18 (ix3 u r k)
      = Ideal.div (tileScore v6 v9 v12 v18 r k * tileScore v6 v9 v12 v18 r k)
          (max (∑ k' : Fin 4096, tileScore v6 v9 v12 v18 r k' * tileScore v6 v9 v12 v18 r k')
            (Ideal.ofBits .f32 0x2B8CBCCC#32)) := by
  unfold k0_pay2
  simp only [shapeCast_self, shapeCast_ab_1ab_apply, divf_apply, broadcastTo_a1_ab_apply, maximumf_apply, broadcast_apply,
    shapeCast_a_a1_apply, rowSum_apply, mulf_apply, scoreProduct_apply, truncf_apply, addf_apply, queryProduct_apply,
    broadcastTo_1b_ab_apply, shapeCast_a_1a_apply, shapeCast_1a_a_apply, shapeCast_1ab_ab_apply]
  refine congrArg₂ Ideal.div rfl (congrArg₂ max ?_ rfl)
  refine (rowSum_apply _ _ _ _ _ r).trans ?_
  simp only [mulf_apply, scoreProduct_apply, truncf_apply, addf_apply, queryProduct_apply, broadcastTo_1b_ab_apply,
    shapeCast_a_1a_apply, shapeCast_1a_a_apply, shapeCast_1ab_ab_apply]
  rfl

end Cert.KernelIdeal.Payload

end
-- ==== Proof.Pieces.lean ====
/-
  What one run of the kernel body leaves behind, as values of the blocks it was handed.

  The body has two cases. At the first query tile of a batch it first projects the whole batch of keys,
  `κ = x·Wkᵀ + bk`, and stores the projection into the scratch buffer; at every query tile it then loads the
  tile's 256 rows out of the resident batch of `x`, projects them to queries, contracts them against whatever the
  scratch buffer holds, squares, normalises each row and stores the [256, 4096] tile.

  Read back:
    * after the first-tile case the scratch buffer holds the key projection of the batch (`keys_first`), and the
      output tile is the normalised squared scores of the tile's rows against that very projection (`tile_first`:
      the load of the scratch buffer after the store reads the stored value);
    * after the other case the scratch buffer is untouched and the output tile is the same function of the tile's
      rows and of what the scratch buffer held on entry (`tile_later`).
  The tile's rows are the slice of the resident batch at row offset 256·(tile number).
-/
import proofs.«129601_j9835475108512_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Offsets written as literal zeros are the zero offsets. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- The rows of the resident batch that query tile `i 1` works on: 256 rows from row `256 · (i 1)`. -/
abbrev tileRows (i : grid0.Coords) (x0 : Vec F S1x4096x256 .f32) : Vec F S1x256x256 .f32 :=
  View.ld x0 (Rect.unit (s := S1x4096x256) (k0_off1 i) S1x256x256.size (k0_off1_inb i))

/-- First tile of a batch: the scratch buffer ends holding the key projection of the whole batch. -/
theorem keys_first (c : Dev nD) (i : grid0.Coords) (arg2 : Memref sig .tc .vmem S1x4096x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S1x256x4096 .f32) (harg7 : arg7.IsWhole) (arg8 : Memref sig .tc .vmem S4096x256 .bf16) (harg8 : arg8.IsWhole) (hc0 : cond0_0 i)
    (x0 : Vec F S1x4096x256 .f32) (x1 : Vec F S256x256 .bf16) (x2 : Vec F S1x256 .f32) (x3 : Vec F S256x256 .bf16) (x4 : Vec F S1x256 .f32) :
    sout0_A_0 c i arg2 harg2 arg3 harg3 arg4 harg4 arg5 harg5 arg6 harg6 arg7 harg7 arg8 harg8 hc0 x0 x1 x2 x3 x4 = k0_pay1 x0 x3 x4 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_run_names
  rw [View.canon_unit_zero zeros2]
  simp only [View.readAt_eq_ld, harg2.read_unread, harg5.read_unread, harg6.read_unread,
    View.ld_unit_zero (S := S1x4096x256) zeros3, View.ld_unit_zero (S := S256x256) zeros2, View.ld_unit_zero (S := S1x256) zeros2]

/-- First tile of a batch: the output tile is computed from the tile's rows and the key projection just stored. -/
theorem tile_first (c : Dev nD) (i : grid0.Coords) (arg2 : Memref sig .tc .vmem S1x4096x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S1x256x4096 .f32) (harg7 : arg7.IsWhole) (arg8 : Memref sig .tc .vmem S4096x256 .bf16) (harg8 : arg8.IsWhole) (hc0 : cond0_0 i)
    (x0 : Vec F S1x4096x256 .f32) (x1 : Vec F S256x256 .bf16) (x2 : Vec F S1x256 .f32) (x3 : Vec F S256x256 .bf16) (x4 : Vec F S1x256 .f32) :
    out0_A_5 c i arg2 harg2 arg3 harg3 arg4 harg4 arg5 harg5 arg6 harg6 arg7 harg7 arg8 harg8 hc0 x0 x1 x2 x3 x4 = k0_pay2 (tileRows i x0) x1 x2 (k0_pay1 x0 x3 x4) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_run_names
  rw [View.canon_unit_zero zeros3, View.readCov_unit_zero (S := S4096x256) _ zeros2]
  simp only [View.readAt_eq_ld, harg2.read_unread, harg3.read_unread, harg4.read_unread, harg5.read_unread, harg6.read_unread,
    View.ld_unit_zero (S := S1x4096x256) zeros3, View.ld_unit_zero (S := S256x256) zeros2, View.ld_unit_zero (S := S1x256) zeros2]

/-- Any later tile: the output tile is computed from the tile's rows and what the scratch buffer held on entry. -/
theorem tile_later (c : Dev nD) (i : grid0.Coords) (arg2 : Memref sig .tc .vmem S1x4096x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S1x256x4096 .f32) (harg7 : arg7.IsWhole) (arg8 : Memref sig .tc .vmem S4096x256 .bf16) (harg8 : arg8.IsWhole) (hc0 : ¬cond0_0 i)
    (x0 : Vec F S1x4096x256 .f32) (x1 : Vec F S256x256 .bf16) (x2 : Vec F S1x256 .f32) (x3 : Vec F S256x256 .bf16) (x4 : Vec F S1x256 .f32) (xs0 : Vec F S4096x256 .bf16) :
    out0_B_5 c i arg2 harg2 arg3 harg3 arg4 harg4 arg5 harg5 arg6 harg6 arg7 harg7 arg8 harg8 hc0 x0 x1 x2 x3 x4 xs0 = k0_pay2 (tileRows i x0) x1 x2 xs0 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  rw [View.canon_unit_zero zeros3]
  simp only [View.readAt_eq_ld, harg2.read_unread, harg3.read_unread, harg4.read_unread, harg8.read_unread,
    View.ld_unit_zero (S := S4096x256) zeros2, View.ld_unit_zero (S := S256x256) zeros2, View.ld_unit_zero (S := S1x256) zeros2]

end Cert.KernelIdeal.Pieces

end
-- ==== Proof.Carried.lean ====
/-
  What the scratch buffer carries from one grid point to the next, and what every point therefore writes.

  The grid runs batch by batch, sixteen query tiles per batch, in row-major order: point `n` is tile `n % 16` of batch
  `n / 16`. The first tile of a batch fills the scratch buffer with the batch's key projection; the fifteen that follow
  leave it alone. So after ANY point the scratch buffer holds the key projection computed at the first point of that
  point's batch (`scratch_eq`, by induction along the grid), and every point's output tile is the tile function of its
  own rows against that projection (`tile_eq`), whichever of the two cases the point is in.
-/
import proofs.«129601_j9835475108512_2_alg».proof.Proof.Gen.KernelIdeal.Value
import proofs.«129601_j9835475108512_2_alg».proof.Proof.Pieces

noncomputable section

open Idealize.ShloMosaic Idealize.ShloMosaic.TcCoe Idealize.SL.Sem

namespace Cert.KernelIdeal.Carried

open Cert.KernelIdeal Cert.KernelIdeal.Gen Cert.KernelIdeal.Pieces

variable {F : FTy → Type} [FloatOps F]
variable (m : (ℓ : Loc nD τ sig) → Buf (Elt F) ℓ)

/-- The first point of the batch that point `n` belongs to. -/
def batchStart (n : ℕ) (h : n < cfg0.N) : Fin cfg0.N := ⟨16 * (n / 16), lt_of_le_of_lt (Nat.mul_div_le n 16) h⟩

theorem batchStart_of_first (n : ℕ) (h : n < cfg0.N) (h0 : n % 16 = 0) : batchStart n h = ⟨n, h⟩ :=
  Fin.ext (by show 16 * (n / 16) = n; omega)

theorem batchStart_of_later (n : ℕ) (h : n + 1 < cfg0.N) (h0 : ¬(n + 1) % 16 = 0) :
    batchStart n (Nat.lt_of_succ_lt h) = batchStart (n + 1) h :=
  Fin.ext (by show 16 * (n / 16) = 16 * ((n + 1) / 16); omega)

/-- The key projection of the batch resident at point `t`, from the blocks the windows hold there. -/
def keysAt (c : Dev nD) (t : Fin cfg0.N) : Vec F S4096x256 .bf16 :=
  k0_pay1 (iblk m c 0 t) (iblk m c 3 t) (iblk m c 4 t)

/-- After point `n` the scratch buffer holds the key projection computed at the first point of `n`'s batch. -/
theorem scratch_eq (c : Dev nD) : ∀ (n : ℕ) (h : n < cfg0.N), (outsAt0 m c n h).2 = keysAt m c (batchStart n h)
  | 0, h => by
    rw [outsAt0_A m c ⟨0, h⟩ rfl, batchStart_of_first 0 h rfl]
    dsimp only
    exact keys_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)
  | n + 1, h => by
    by_cases h0 : (n + 1) % 16 = 0
    · rw [outsAt0_A m c ⟨n + 1, h⟩ h0, batchStart_of_first (n + 1) h h0]
      dsimp only
      exact keys_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)
    · rw [outsAt0_B m c ⟨n + 1, h⟩ h0, ← batchStart_of_later n h h0]
      dsimp only
      unfold sout0_B_0
      exact scratch_eq c n (Nat.lt_of_succ_lt h)

/-- What point `t` leaves in the output's staging buffer: the tile function of the rows of its query tile, the query
    weights and bias, and the key projection of its batch. -/
theorem tile_eq (c : Dev nD) (t : Fin cfg0.N) :
    (outsAt0 m c t.val t.isLt).1
      = k0_pay2 (tileRows (grid0.coords t) (iblk m c 0 t)) (iblk m c 1 t) (iblk m c 2 t) (keysAt m c (batchStart t.val t.isLt)) := by
  by_cases h0 : t.val % 16 = 0
  · rw [outsAt0_A m c t h0, batchStart_of_first t.val t.isLt h0]
    dsimp only
    exact tile_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)
  · obtain ⟨n, hn⟩ := t
    cases n with
    | zero => exact absurd (Nat.zero_mod 16) h0
    | succ n =>
      rw [outsAt0_B m c ⟨n + 1, hn⟩ h0]
      dsimp only
      have carriedKeys : (outsAt0 m c (n + 1 - 1) (Nat.lt_of_le_of_lt (Nat.sub_le (n + 1) 1) hn)).2
          = keysAt m c (batchStart (n + 1) hn) :=
        (scratch_eq m c n (Nat.lt_of_succ_lt hn)).trans (congrArg (keysAt m c) (batchStart_of_later n hn h0))
      rw [carriedKeys]
      exact tile_later c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) _

end Cert.KernelIdeal.Carried

end
-- ==== Proof.Blocks.lean ====
/-
  What each window's block holds at a grid point, read entry by entry off the arguments.

  Point `t` of the 4 × 16 grid is query tile `t % 16` of batch `t / 16`. There
    * the first window holds the whole batch `t / 16` of `x`; the body's query tile is its rows
      `256·(t % 16) … 256·(t % 16) + 255`;
    * the weight windows hold `Wqᵀ` and `Wkᵀ`, transposed (and rounded to the short format, which is the identity
      on extended reals) by the host before the call: entry (f, g) is `W(g, f)`;
    * the bias windows hold `bq` and `bk` as rows: entry (0, g) is `b(g)`.
-/
import proofs.«129601_j9835475108512_2_alg».proof.Proof.Gen.KernelIdeal.Frame
import proofs.«129601_j9835475108512_2_alg».proof.Proof.Pieces
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

/-- The windows' block indices and the body's row offset at every grid point (decided over the 64 points). -/
theorem index_facts : ∀ t : Fin cfg0.N,
    win0_0.index t (0 : Fin 3) = t.val / 16 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 16 ∧ win0_5.index t (1 : Fin 3) = t.val % 16 ∧ win0_5.index t (2 : Fin 3) = 0
    ∧ k0_off1 (grid0.coords t) (0 : Fin 3) = 0 ∧ k0_off1 (grid0.coords t) (1 : Fin 3) = 256 * (t.val % 16)
    ∧ k0_off1 (grid0.coords t) (2 : Fin 3) = 0 :=
  (by decide +kernel : ∀ t : Fin grid0.N, _)

section Reads

variable {F : FTy → Type} [FloatOps F]
variable (m : (ℓ : Loc nD τ sig) → Buf (Elt F) ℓ)

/-- The first window's block at `t` is batch `t / 16` of `x`. -/
theorem batch_apply (c : Dev nD) (t : Fin cfg0.N) (u : Fin 1) (n : Fin 4096) (f : Fin 256) (p : Fin 4) (hp : p.val = t.val / 16) :
    iblk m c 0 t (ix3 u n f) = m ((c : Thread nD τ).loc main_arg0) (ix3 p n f) := by
  obtain ⟨e0, e1, e2, -⟩ := index_facts t
  rw [← V_main_arg0 m c]
  show V m c main_arg0 (((cfg0.win 0).blk t).view.emb (ix3 u n f)) = V m c main_arg0 (ix3 p n f)
  refine congrArg (V m c main_arg0) (funext fun a => Fin.ext ?_)
  match a with
  | ⟨0, _⟩ => show win0_0.index t (0 : Fin 3) * 1 + 1 * u.val = p.val; have := u.isLt; omega
  | ⟨1, _⟩ => show win0_0.index t (1 : Fin 3) * 4096 + 1 * n.val = n.val; omega
  | ⟨2, _⟩ => show win0_0.index t (2 : Fin 3) * 256 + 1 * f.val = f.val; omega

/-- The body's query tile at `t`: rows `256·(t % 16) + r` of the resident batch. -/
theorem tileRows_apply (t : Fin cfg0.N) (x0 : Vec F S1x4096x256 .f32) (u : Fin 1) (r f : Fin 256) (n : Fin 4096)
    (hn : n.val = 256 * (t.val % 16) + r.val) :
    Cert.KernelIdeal.Pieces.tileRows (grid0.coords t) x0 (ix3 u r f) = x0 (ix3 u n f) := by
  obtain ⟨-, -, -, -, -, -, -, -, -, -, -, -, -, -, o0, o1, o2⟩ := index_facts t
  show x0 ((Rect.unit (s := S1x4096x256) (k0_off1 (grid0.coords t)) S1x256x256.size (k0_off1_inb (grid0.coords t))).emb (ix3 u r f)) = x0 (ix3 u n f)
  refine congrArg x0 (funext fun a => Fin.ext ?_)
  match a with
  | ⟨0, _⟩ => show k0_off1 (grid0.coords t) (0 : Fin 3) + 1 * u.val = u.val; omega
  | ⟨1, _⟩ => show k0_off1 (grid0.coords t) (1 : Fin 3) + 1 * r.val = n.val; omega
  | ⟨2, _⟩ => show k0_off1 (grid0.coords t) (2 : Fin 3) + 1 * f.val = f.val; omega

/-- What the host left in the two weight buffers and the two bias buffers before the call. -/
theorem host_wqT (c : Dev nD) : (V m c main_v3 : S256x256.Idx → Elt F .bf16)
    = truncf .bf16 (transpose S256x256 [1, 0] (m ((c : Thread nD τ).loc main_arg1)) transposes_S256x256_S256x256_1_0) bitsLt_bf16_f32 := by
  dsimp only [V, hostOps0]; after_results
theorem host_wkT (c : Dev nD) : (V m c main_v5 : S256x256.Idx → Elt F .bf16)
    = truncf .bf16 (transpose S256x256 [1, 0] (m ((c : Thread nD τ).loc main_arg3)) transposes_S256x256_S256x256_1_0) bitsLt_bf16_f32 := by
  dsimp only [V, hostOps0]; after_results
theorem host_bqRow (c : Dev nD) : (V m c main_v0 : S1x256.Idx → Elt F .f32)
    = shapeCast S1x256 (m ((c : Thread nD τ).loc main_arg2)) shapeCasts_S256_S1x256 := by
  dsimp only [V, hostOps0]; after_results; rfl
theorem host_bkRow (c : Dev nD) : (V m c main_v1 : S1x256.Idx → Elt F .f32)
    = shapeCast S1x256 (m ((c : Thread nD τ).loc main_arg4)) shapeCasts_S256_S1x256 := by
  dsimp only [V, hostOps0]; after_results; rfl

/-- The weight and bias windows hold their whole arrays at every point. -/
theorem wq_block (c : Dev nD) (t : Fin cfg0.N) (f g : Fin 256) : iblk m c 1 t (ix2 f g) = V m c main_v3 (ix2 f g) := by
  obtain ⟨-, -, -, e0, e1, -⟩ := index_facts t
  show V m c main_v3 (((cfg0.win 1).blk t).view.emb (ix2 f g)) = V m c main_v3 (ix2 f g)
  refine congrArg (V m c main_v3) (funext fun a => Fin.ext ?_)
  match a with
  | ⟨0, _⟩ => show win0_1.index t (0 : Fin 2) * 256 + 1 * f.val = f.val; omega
  | ⟨1, _⟩ => show win0_1.index t (1 : Fin 2) * 256 + 1 * g.val = g.val; omega
theorem bq_block (c : Dev nD) (t : Fin cfg0.N) (u : Fin 1) (g : Fin 256) : iblk m c 2 t (ix2 u g) = V m c main_v0 (ix2 u g) := by
  obtain ⟨-, -, -, -, -, e0, e1, -⟩ := index_facts t
  show V m c main_v0 (((cfg0.win 2).blk t).view.emb (ix2 u g)) = V m c main_v0 (ix2 u g)
  refine congrArg (V m c main_v0) (funext fun a => Fin.ext ?_)
  match a with
  | ⟨0, _⟩ => show win0_2.index t (0 : Fin 2) * 1 + 1 * u.val = u.val; omega
  | ⟨1, _⟩ => show win0_2.index t (1 : Fin 2) * 256 + 1 * g.val = g.val; omega
theorem wk_block (c : Dev nD) (t : Fin cfg0.N) (f g : Fin 256) : iblk m c 3 t (ix2 f g) = V m c main_v5 (ix2 f g) := by
  obtain ⟨-, -, -, -, -, -, -, e0, e1, -⟩ := index_facts t
  show V m c main_v5 (((cfg0.win 3).blk t).view.emb (ix2 f g)) = V m c main_v5 (ix2 f g)
  refine congrArg (V m c main_v5) (funext fun a => Fin.ext ?_)
  match a with
  | ⟨0, _⟩ => show win0_3.index t (0 : Fin 2) * 256 + 1 * f.val = f.val; omega
  | ⟨1, _⟩ => show win0_3.index t (1 : Fin 2) * 256 + 1 * g.val = g.val; omega
theorem bk_block (c : Dev nD) (t : Fin cfg0.N) (u : Fin 1) (g : Fin 256) : iblk m c 4 t (ix2 u g) = V m c main_v1 (ix2 u g) := by
  obtain ⟨-, -, -, -, -, -, -, -, -, e0, e1, -⟩ := index_facts t
  show V m c main_v1 (((cfg0.win 4).blk t).view.emb (ix2 u g)) = V m c main_v1 (ix2 u g)
  refine congrArg (V m c main_v1) (funext fun a => Fin.ext ?_)
  match a with
  | ⟨0, _⟩ => show win0_4.index t (0 : Fin 2) * 1 + 1 * u.val = u.val; omega
  | ⟨1, _⟩ => show win0_4.index t (1 : Fin 2) * 256 + 1 * g.val = g.val; omega

end Reads

/-! ### The same over the extended reals, down to the arguments -/

section AtIdeal

variable (m : (ℓ : Loc nD τ sig) → Buf (Elt Ideal) ℓ)

/-- The query-weight window at (f, g) is `Wq(g, f)`. -/
theorem wq_apply (c : Dev nD) (t : Fin cfg0.N) (f g : Fin 256) :
    iblk m c 1 t (ix2 f g) = m ((c : Thread nD τ).loc main_arg1) (ix2 g f) := by
  rw [wq_block, host_wqT, truncf_apply, transpose_ix2_apply]
/-- The key-weight window at (f, g) is `Wk(g, f)`. -/
theorem wk_apply (c : Dev nD) (t : Fin cfg0.N) (f g : Fin 256) :
    iblk m c 3 t (ix2 f g) = m ((c : Thread nD τ).loc main_arg3) (ix2 g f) := by
  rw [wk_block, host_wkT, truncf_apply, transpose_ix2_apply]
/-- The query-bias window at (0, g) is `bq(g)`. -/
theorem bq_apply (c : Dev nD) (t : Fin cfg0.N) (u : Fin 1) (g : Fin 256) :
    iblk m c 2 t (ix2 u g) = m ((c : Thread nD τ).loc main_arg2) (ix1 g) := by
  rw [bq_block, host_bqRow, shapeCast_a_1a_apply]
/-- The key-bias window at (0, g) is `bk(g)`. -/
theorem bk_apply (c : Dev nD) (t : Fin cfg0.N) (u : Fin 1) (g : Fin 256) :
    iblk m c 4 t (ix2 u g) = m ((c : Thread nD τ).loc main_arg4) (ix1 g) := by
  rw [bk_block, host_bkRow, shapeCast_a_1a_apply]

end AtIdeal

end Cert.KernelIdeal.Blocks

end
-- ==== Proof.Result.lean ====
/-
  The kernel's result array after the run is `Spec.adj` of the five arguments.

  Point `t` writes block (t / 16, t % 16, 0) of the result: rows `256·(t % 16) …` of batch `t / 16`, all 4096 columns.
  What it writes there is the tile function of the tile's query rows against the key projection its batch's first
  point left in the scratch buffer; read entry by entry off the arguments, the key projection is `Spec.lin` with the
  key weights, the tile's scores are `Spec.score`, and the tile is `Spec.adj` at the block's place in the array.
  The 64 blocks tile the array, so the whole array is `Spec.adj`.
-/
import proofs.«129601_j9835475108512_2_alg».proof.Proof.Gen.KernelIdeal.Value
import proofs.«129601_j9835475108512_2_alg».proof.Proof.Spec
import proofs.«129601_j9835475108512_2_alg».proof.Proof.Payload
import proofs.«129601_j9835475108512_2_alg».proof.Proof.Carried
import proofs.«129601_j9835475108512_2_alg».proof.Proof.Blocks

noncomputable section

open Idealize.ShloMosaic Idealize.ShloMosaic.TcCoe Idealize.SL.Sem Idealize.ShloMosaic.ValueIdx
open Idealize.ShloMosaic.Pipeline (Dat)
open scoped BigOperators

namespace Cert.KernelIdeal.Result

open Cert.KernelIdeal Cert.KernelIdeal.Gen

variable (m : (ℓ : Loc nD τ sig) → Buf (Elt Ideal) ℓ) (ρ : Dev nD → PrngReg)

/-- What the result array ends holding. -/
abbrev result (c : Dev nD) : Buf (Elt Ideal) ((c : Thread nD τ).loc main_v6) :=
  Cert.Spec.adj (m ((c : Thread nD τ).loc main_arg0)) (m ((c : Thread nD τ).loc main_arg1)) (m ((c : Thread nD τ).loc main_arg2)) (m ((c : Thread nD τ).loc main_arg3)) (m ((c : Thread nD τ).loc main_arg4))

/-- The key projection resident at point `t`, at key row `k` and feature `g`, is the key linear layer of batch `t / 16`. -/
theorem keysAt_apply (c : Dev nD) (t : Fin cfg0.N) (k : Fin 4096) (g : Fin 256) (p : Fin 4) (hp : p.val = t.val / 16) :
    (Carried.keysAt m c t : FVec Ideal S4096x256 .bf16) (ix2 k g)
      = Cert.Spec.lin (m ((c : Thread nD τ).loc main_arg0)) (m ((c : Thread nD τ).loc main_arg3)) (m ((c : Thread nD τ).loc main_arg4)) p k g := by
  unfold Carried.keysAt
  refine (Payload.keys_apply (iblk m c 0 t) (iblk m c 3 t) (iblk m c 4 t) k g).trans ?_
  unfold Cert.Spec.lin
  rw [Blocks.bk_apply]
  refine congrArg (· + _) (Finset.sum_congr rfl fun f _ => ?_)
  rw [Blocks.batch_apply m c t 0 k f p hp, Blocks.wk_apply]

/-- The tile's score of its row `r` against key row `k` is the score of query row `256·(t % 16) + r` of batch `t / 16`. -/
theorem tileScore_eq (c : Dev nD) (t : Fin cfg0.N) (r : Fin 256) (p : Fin 4) (n : Fin 4096)
    (hp : p.val = t.val / 16) (hn : n.val = 256 * (t.val % 16) + r.val) (k : Fin 4096) :
    Payload.tileScore (Pieces.tileRows (grid0.coords t) (iblk m c 0 t)) (iblk m c 1 t) (iblk m c 2 t)
        (Carried.keysAt m c (Carried.batchStart t.val t.isLt)) r k
      = Cert.Spec.score (m ((c : Thread nD τ).loc main_arg0)) (m ((c : Thread nD τ).loc main_arg1)) (m ((c : Thread nD τ).loc main_arg2)) (m ((c : Thread nD τ).loc main_arg3)) (m ((c : Thread nD τ).loc main_arg4)) p n k := by
  have hp' : p.val = (Carried.batchStart t.val t.isLt).val / 16 := by
    show p.val = 16 * (t.val / 16) / 16; omega
  unfold Payload.tileScore Payload.tileQuery Cert.Spec.score
  refine Finset.sum_congr rfl fun g _ => ?_
  rw [keysAt_apply m c (Carried.batchStart t.val t.isLt) k g p hp']
  refine congrArg (· * _) ?_
  unfold Cert.Spec.lin
  rw [Blocks.bq_apply]
  refine congrArg (· + _) (Finset.sum_congr rfl fun f _ => ?_)
  rw [Blocks.tileRows_apply t (iblk m c 0 t) 0 r f n hn, Blocks.batch_apply m c t 0 n f p hp, Blocks.wq_apply]

/-- What point `t` leaves in the output's staging buffer, at row `r` and column `k` of the tile, is `Spec.adj` at
    (t / 16, 256·(t % 16) + r, k). -/
theorem tile_apply (c : Dev nD) (t : Fin cfg0.N) (u : Fin 1) (r : Fin 256) (k : Fin 4096) (p : Fin 4) (n : Fin 4096)
    (hp : p.val = t.val / 16) (hn : n.val = 256 * (t.val % 16) + r.val) :
    ((outsAt0 m c t.val t.isLt).1 : FVec Ideal S1x256x4096 .f32) (ix3 u r k) = result m c (ix3 p n k) := by
  rw [Carried.tile_eq m c t]
  refine (Payload.tile_apply (Pieces.tileRows (grid0.coords t) (iblk m c 0 t)) (iblk m c 1 t) (iblk m c 2 t)
    (Carried.keysAt m c (Carried.batchStart t.val t.isLt)) u r k).trans ?_
  have scores : ∀ k' : Fin 4096, Payload.tileScore (Pieces.tileRows (grid0.coords t) (iblk m c 0 t)) (iblk m c 1 t) (iblk m c 2 t)
        (Carried.keysAt m c (Carried.batchStart t.val t.isLt)) r k'
      = Cert.Spec.score (m ((c : Thread nD τ).loc main_arg0)) (m ((c : Thread nD τ).loc main_arg1)) (m ((c : Thread nD τ).loc main_arg2)) (m ((c : Thread nD τ).loc main_arg3)) (m ((c : Thread nD τ).loc main_arg4)) p n k' :=
    tileScore_eq m c t r p n hp hn
  simp only [scores]
  rfl

/-- WHAT POINT `t` WRITES BACK is block `t` of `result`. -/
theorem flushed_eq (c : Dev nD) (t : Fin cfg0.N) :
    (dats m 0 c).flushed 5 t = ((cfg0.win 5).blk t).view.read (Elt Ideal) (result m c) := by
  rw [Value.flushed5]
  obtain ⟨-, -, -, -, -, -, -, -, -, -, -, e0, e1, e2, -⟩ := Blocks.index_facts t
  have hN : t.val < 64 := lt_of_lt_of_eq t.isLt N_0
  refine funext fun (y : S1x256x4096.Idx) => ?_
  show ((outsAt0 m c t.val t.isLt).1 : FVec Ideal S1x256x4096 .f32) y = result m c (((cfg0.win 5).blk t).view.emb y)
  have h0 : (y 0).val < 1 := (y 0).isLt
  have h1 : (y 1).val < 256 := (y 1).isLt
  have h2 : (y 2).val < 4096 := (y 2).isLt
  have key := tile_apply m c t (y 0) (y 1) (y 2) ⟨t.val / 16, by omega⟩ ⟨256 * (t.val % 16) + (y 1).val, by omega⟩ rfl rfl
  refine ((congrArg ((outsAt0 m c t.val t.isLt).1 : FVec Ideal S1x256x4096 .f32) (eq_ix3 y)).trans key).trans ?_
  refine congrArg (result m c) (funext fun a => Fin.ext ?_)
  match a with
  | ⟨0, _⟩ => show t.val / 16 = win0_5.index t (0 : Fin 3) * 1 + 1 * (y 0).val; omega
  | ⟨1, _⟩ => show 256 * (t.val % 16) + (y 1).val = win0_5.index t (1 : Fin 3) * 256 + 1 * (y 1).val; omega
  | ⟨2, _⟩ => show (y 2).val = win0_5.index t (2 : Fin 3) * 4096 + 1 * (y 2).val; omega

/-- An index of the array is in point `t`'s block iff each coordinate is in the block's range on its axis. -/
theorem mem_blk (t : Fin cfg0.N) (i : S4x4096x4096.Idx) :
    i ∈ ((cfg0.win 5).blk t).view.set ↔ ∀ a : Fin 3, win0_5.index t a * S1x256x4096.size a ≤ (i a).val ∧ (i a).val < win0_5.index t a * S1x256x4096.size a + S1x256x4096.size a := by
  show i ∈ ((View.whole main_v6).slice (win0_5.rect t)).set ↔ _
  rw [View.set_slice_whole, Rect.mem_set_unit]
  exact Iff.rfl

/-- Every index of the array is in some point's block: batch `i 0`, query tile `(i 1) / 256`. -/
theorem cover (i : S4x4096x4096.Idx) : ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 4096 := (i 2).isLt
  have hN : cfg0.N = 64 := N_0
  obtain ⟨t, ht⟩ : ∃ t : Fin cfg0.N, t.val = 16 * (i 0).val + (i 1).val / 256 := ⟨⟨16 * (i 0).val + (i 1).val / 256, by omega⟩, rfl⟩
  obtain ⟨-, -, -, -, -, -, -, -, -, -, -, e0, e1, e2, -⟩ := Blocks.index_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 4096 ≤ (i 2).val ∧ (i 2).val < win0_5.index t (2 : Fin 3) * 4096 + 4096; omega

/-- THE ARRAY after the run. -/
theorem final (c : Dev nD) : (dats m 0 c).arrAt 5 cfg0.N = result m c :=
  (dats m 0 c).arrAt_eq_of_cover 5 (result m c) (fun t _ => flushed_eq m c t) cover

/-- The run, read: the result array at `Spec.adj` of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.lean ====
/-
  The kernel and its reference compute the same normalised squared-score matrix over the extended reals.

  For a batch p, query row n and key row k, both programs end with
      adj(p, n, k) = d(p, n, k)² / max(Σ_k' d(p, n, k')², ε),     d(p, n, k) = Σ_g q(p, n, g) · κ(p, k, g),
      q = x·Wqᵀ + bq,   κ = x·Wkᵀ + bk
  (`Spec.adj`). The reference computes it by three contractions over whole arrays. The kernel walks a 4 × 16 grid,
  one tile of 256 query rows per point: at the first tile of a batch it projects the batch's keys into a scratch
  buffer, which the next fifteen tiles reuse; every tile projects its own query rows, contracts them against the
  stored keys, squares, and normalises each row. Roundings to the short float format are the identity on extended
  reals, a product into zero rows and the host's contraction are the same sum, the row sum and the host's reduction
  from zero are the same sum, and ε is the same word on both sides, so the two results agree entry by entry with no
  algebra beyond `0 + s = s`; the precondition is never opened.

  Modules: Spec (the function), RefIsSpec (the reference computes it), Pieces (what one run of the body leaves),
  Payload (the body's arithmetic entry by entry), Carried (the scratch buffer along the grid), Blocks (the windows'
  blocks read off the arguments), Result (the kernel's result array is the function).
-/
import proofs.«129601_j9835475108512_2_alg».proof.Defs
import proofs.«129601_j9835475108512_2_alg».proof.Proof.Gen.Kernel
import proofs.«129601_j9835475108512_2_alg».proof.Proof.Gen.Kernel.Skeleton
import proofs.«129601_j9835475108512_2_alg».proof.Proof.Gen.Kernel.Launch
import proofs.«129601_j9835475108512_2_alg».proof.Proof.Gen.Kernel.Points
import proofs.«129601_j9835475108512_2_alg».proof.Proof.Gen.Kernel.Frame
import proofs.«129601_j9835475108512_2_alg».proof.Proof.Gen.KernelIdeal
import proofs.«129601_j9835475108512_2_alg».proof.Proof.Gen.KernelIdeal.Skeleton
import proofs.«129601_j9835475108512_2_alg».proof.Proof.Gen.KernelIdeal.Launch
import proofs.«129601_j9835475108512_2_alg».proof.Proof.Gen.KernelIdeal.Points
import proofs.«129601_j9835475108512_2_alg».proof.Proof.Gen.KernelIdeal.Frame
import proofs.«129601_j9835475108512_2_alg».proof.Proof.Gen.ReferenceIdeal
import proofs.«129601_j9835475108512_2_alg».proof.Proof.Gen.Pre_finite_inputs
import proofs.«129601_j9835475108512_2_alg».proof.Proof.Gen.KernelIdeal.Value
import proofs.«129601_j9835475108512_2_alg».proof.Proof.Gen.ReferenceIdeal.Run
import proofs.«129601_j9835475108512_2_alg».proof.Proof.Gen.ReferenceIdeal.Read
import proofs.«129601_j9835475108512_2_alg».proof.Proof.RefIsSpec
import proofs.«129601_j9835475108512_2_alg».proof.Proof.Result
import Idealize.ShloMosaic.Adequacy
import Idealize.ShloMosaic.Init

noncomputable section

namespace Cert.Proof

open Idealize.ShloMosaic Idealize.SL.Sem

/-- The three programs run to the end without a fault and leave their arguments as they found them. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- Idealizing the kernel rewrote nothing. -/
theorem preserves : Cert.preserves_Kernel_KernelIdeal := trivial

/-- Over the extended reals the kernel's result array ends at `Spec.adj` of its arguments, and the reference's at
    its composed term of arguments that agree with them, which is `Spec.adj` of those. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.KernelIdeal.Result.result m c, ?_, ?_⟩
  · exact (θ_run Cert.KernelIdeal.defs _ _).mono (fun _ h c => ⟨(h c).2.1, (h c).1, (h c).2⟩)
      (Cert.KernelIdeal.Result.run m ρ)
  · refine (θ_run Cert.ReferenceIdeal.defs _ _).mono (fun _ h c => ⟨(h c).1.trans (hagree c).1, (h c).2.1.trans ?_, (h c).2.2⟩)
      (Cert.ReferenceIdeal.Value.run (F := Ideal) m' ρ')
    rw [Cert.ReferenceIdeal.Read.val_main_v15_eq, Cert.ReferenceIdeal.RefValue.reference_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
